-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : FVec F S256x128 .f32) (main_arg3 : FVec F S128 .f32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S10000x128 : Shape := ⟨2, ![10000, 128]⟩

abbrev nBuf : Space → Nat
  | .hbm => 13
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S128 : Shape := ⟨1, ![128]⟩
abbrev S100000x256 : Shape := ⟨2, ![100000, 256]⟩
abbrev S1x128 : Shape := ⟨2, ![1, 128]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S100000x256, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x256_S256x128_S100000x128_1_0_0_1_n_n_wf : DotDims.WF S100000x256 S256x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The specification: what both programs compute, as ONE function of the six argument arrays.

  Two feature arrays `xa`, `xb` of 100000 rows and 128 columns are fused by two gates. Each gate has a weight matrix of
  256 rows and 128 columns and a bias of 128 entries. The LOGIT of a gate at row `r` and column `c` is the row `r` of
  the two feature arrays laid side by side (256 numbers) against column `c` of the weight matrix, plus the bias at `c`:
  the first 128 weights meet `xa`, the last 128 meet `xb`. It is written here as those two sums of 128 products each.
  The GATE is `1/2 * tanh (logit / 2) + 1/2`, and the result at `(r, c)` is
  `gate₁ * xa (r, c) + gate₂ * xb (r, c)`.
-/
import Idealize.ShloMosaic.PureOps.Ideal
import Idealize.ShloMosaic.Lib.ValueIdx

noncomputable section

namespace Cert.Spec

open Idealize.ShloMosaic Idealize.ShloMosaic.ValueIdx

/-- One half, as both programs spell it. -/
abbrev half : EReal := Ideal.ofBits .f32 0x3F000000#32

/-- Row `k` of the top half of a 256-row matrix. -/
abbrev topRow (k : Fin 128) : Fin 256 := ⟨k.val, by have := k.isLt; omega⟩

/-- Row `k` of the bottom half of a 256-row matrix. -/
abbrev botRow (k : Fin 128) : Fin 256 := ⟨128 + k.val, by have := k.isLt; omega⟩

/-- The logit at row `r`, column `c`: `∑ k, xa (r, k) * W (k, c) + ∑ k, xb (r, k) * W (128 + k, c) + b c`. -/
def logit (xa xb : (⟨2, ![100000, 128]⟩ : Shape).Idx → EReal) (W : (⟨2, ![256, 128]⟩ : Shape).Idx → EReal)
    (b : (⟨1, ![128]⟩ : Shape).Idx → EReal) (r : Fin 100000) (c : Fin 128) : EReal :=
  (∑ k : Fin 128, xa (ix2 r k) * W (ix2 (topRow k) c) + ∑ k : Fin 128, xb (ix2 r k) * W (ix2 (botRow k) c)) + b (ix1 c)

/-- The gate of a logit: `1/2 * tanh (L / 2) + 1/2`. -/
def gate (L : EReal) : EReal := half * Ideal.tanh (half * L) + half

/-- The fused features: at `(r, c)`, `gate (logit₁) * xa (r, c) + gate (logit₂) * xb (r, c)`. -/
def fused (xa xb : (⟨2, ![100000, 128]⟩ : Shape).Idx → EReal) (W1 : (⟨2, ![256, 128]⟩ : Shape).Idx → EReal)
    (b1 : (⟨1, ![128]⟩ : Shape).Idx → EReal) (W2 : (⟨2, ![256, 128]⟩ : Shape).Idx → EReal)
    (b2 : (⟨1, ![128]⟩ : Shape).Idx → EReal) : (⟨2, ![100000, 128]⟩ : Shape).Idx → EReal := fun i =>
  gate (logit xa xb W1 b1 (i 0) (i 1)) * xa i + gate (logit xa xb W2 b2 (i 0) (i 1)) * xb i

/-- The result at an index given by its two coordinates. -/
theorem fused_apply (xa xb : (⟨2, ![100000, 128]⟩ : Shape).Idx → EReal) (W1 : (⟨2, ![256, 128]⟩ : Shape).Idx → EReal)
    (b1 : (⟨1, ![128]⟩ : Shape).Idx → EReal) (W2 : (⟨2, ![256, 128]⟩ : Shape).Idx → EReal)
    (b2 : (⟨1, ![128]⟩ : Shape).Idx → EReal) (r : Fin 100000) (c : Fin 128) :
    fused xa xb W1 b1 W2 b2 (ix2 r c)
      = gate (logit xa xb W1 b1 r c) * xa (ix2 r c) + gate (logit xa xb W2 b2 r c) * xb (ix2 r c) := rfl

end Cert.Spec

end
-- ==== Proof.GateLaw.lean ====
/-
  The gate law. Both programs turn a logit `L` into a gate in `[0, 1]`: one as the logistic function
  `1 / (1 + e^(-L))`, the other as `1/2 * tanh (L / 2) + 1/2`. With `e = exp (L / 2)` both are `e / (e + 1/e)`, so they are
  the same real number for every real `L`. On the extended reals the two infinite logits agree as well: at `+∞` the
  logistic form is `1 / (1 + 0) = 1` and the other `1/2 * 1 + 1/2 = 1`; at `-∞` the logistic form is `1 / (+∞) = 0` and the
  other `1/2 * (-1) + 1/2 = 0`. So the law holds for EVERY extended real, and nothing about the inputs being finite is
  needed for it.
-/
import Idealize.ShloMosaic.PureOps.Ideal

noncomputable section

namespace Cert.GateLaw

open Idealize.ShloMosaic

/-- The word `0x3F000000` denotes one half. -/
theorem half_word : Ideal.ofBits .f32 0x3F000000#32 = ((1 / 2 : ℝ) : EReal) := by
  simp [Ideal.ofBits, Ideal.ieee, -EReal.coe_mul]; norm_num

/-- The word `0x3F800000` denotes one. -/
theorem one_word : Ideal.ofBits .f32 0x3F800000#32 = ((1 : ℝ) : EReal) := by
  simp [Ideal.ofBits, Ideal.ieee, -EReal.coe_mul]; norm_num

/-- Over the reals: `1 / (1 + e^(-r)) = 1/2 * tanh (r / 2) + 1/2`. -/
theorem logistic_real (r : ℝ) : 1 / (1 + Real.exp (-r)) = 1 / 2 * Real.tanh (1 / 2 * r) + 1 / 2 := by
  have hsq : Real.exp (-r) = Real.exp (-(1 / 2 * r)) * Real.exp (-(1 / 2 * r)) := by
    rw [← Real.exp_add]; congr 1; ring
  have hinv : Real.exp (-(1 / 2 * r)) = (Real.exp (1 / 2 * r))⁻¹ := Real.exp_neg _
  have hpos : 0 < Real.exp (1 / 2 * r) := Real.exp_pos _
  rw [Real.tanh_eq_sinh_div_cosh, Real.sinh_eq, Real.cosh_eq, hsq, hinv]
  generalize Real.exp (1 / 2 * r) = e at hpos
  have hne : e ≠ 0 := hpos.ne'
  have h1 : 1 + e⁻¹ * e⁻¹ ≠ 0 := by positivity
  have h2 : (e + e⁻¹) / 2 ≠ 0 := by positivity
  field_simp
  ring

/-- On the extended reals, for every logit `L`: the logistic form of the gate is the `tanh` form. -/
theorem gate (L : EReal) :
    Ideal.div (Ideal.ofBits .f32 0x3F800000#32) (Ideal.ofBits .f32 0x3F800000#32 + Ideal.exp (-L))
      = Ideal.ofBits .f32 0x3F000000#32 * Ideal.tanh (Ideal.ofBits .f32 0x3F000000#32 * L)
        + Ideal.ofBits .f32 0x3F000000#32 := by
  rw [half_word, one_word]
  induction L using EReal.rec with
  | bot =>
    rw [EReal.neg_bot, Ideal.exp_top, EReal.coe_add_top, EReal.coe_mul_bot_of_pos (by norm_num), Ideal.tanh_bot,
      Ideal.div, if_neg EReal.top_ne_zero, EReal.inv_top, mul_zero, mul_neg, mul_one, ← EReal.coe_neg, ← EReal.coe_add]
    norm_num
  | coe r =>
    have hd : (1 + Real.exp (-r)) ≠ 0 := by positivity
    rw [← EReal.coe_neg, Ideal.exp_coe, ← EReal.coe_add, Ideal.div_coe hd, ← EReal.coe_mul, ← EReal.coe_mul,
      Ideal.tanh_coe, ← EReal.coe_mul, ← EReal.coe_add, one_mul, logistic_real]
  | top =>
    rw [EReal.neg_top, Ideal.exp_bot, add_zero, Ideal.div_coe one_ne_zero, EReal.coe_mul_top_of_pos (by norm_num),
      Ideal.tanh_top, mul_one, ← EReal.coe_mul, ← EReal.coe_add]
    norm_num

end Cert.GateLaw

end
-- ==== Proof.RefValue.lean ====
/-
  The reference computes the specification.

  The reference lays the two feature arrays side by side (a row of 256 numbers), multiplies by the whole weight matrix, adds
  the bias, and applies the logistic function `1 / (1 + e^(-L))`. Read at row `r` and column `c`:
  * an entry of the side-by-side array comes from the first feature array when its column is below 128 and from the
    second, 128 columns earlier, otherwise;
  * so the product's sum over 256 columns is the sum over the first 128 (first array against the top half of the
    weights) plus the sum over the last 128 (second array against the bottom half): a sum split in two, which needs
    nothing but that addition is associative and commutative;
  * the bias, broadcast over the rows, is read at `c`;
  * and the logistic function of the logit is the gate `1/2 * tanh (L / 2) + 1/2` (the gate law).
-/
import proofs.«141303_g6167573037229_cont_9to1_m_401_19_alg».proof.Proof.Gen.ReferenceIdeal.Read
import proofs.«141303_g6167573037229_cont_9to1_m_401_19_alg».proof.Proof.Spec
import proofs.«141303_g6167573037229_cont_9to1_m_401_19_alg».proof.Proof.GateLaw

noncomputable section

namespace Cert.RefValue

open Cert.ReferenceIdeal Cert.ReferenceIdeal.Read Idealize.ShloMosaic Idealize.ShloMosaic.ValueIdx Cert.Spec

/-- A sum over 256 columns is the sum over the first 128 plus the sum over the last 128. -/
theorem sum_halves (f : Fin 256 → EReal) :
    ∑ k : Fin 256, f k = ∑ k : Fin 128, f (topRow k) + ∑ k : Fin 128, f (botRow k) :=
  Fin.sum_univ_add (a := 128) (b := 128) f

/-- Left of column 128 the side-by-side array is the first feature array. -/
theorem concat_top (x0 x1 : (⟨S100000x128, .f32⟩ : BufTy).Contents (Elt Ideal)) (r : Fin 100000) (k : Fin 128) :
    val_main_v0 (F := Ideal) x0 x1 (ix2 r (topRow k)) = x0 (ix2 r k) := by
  unfold val_main_v0
  exact concatenate_pair_apply_left (1 : Fin 2) x0 x1 _ (ix2 r (topRow k)) rfl (ix2 r k)
    (fun b => by match b with | ⟨0, _⟩ => rfl | ⟨1, _⟩ => rfl)

/-- From column 128 on it is the second feature array, 128 columns earlier. -/
theorem concat_bot (x0 x1 : (⟨S100000x128, .f32⟩ : BufTy).Contents (Elt Ideal)) (r : Fin 100000) (k : Fin 128) :
    val_main_v0 (F := Ideal) x0 x1 (ix2 r (botRow k)) = x1 (ix2 r k) := by
  unfold val_main_v0
  exact concatenate_pair_apply_right (1 : Fin 2) x0 x1 _ (ix2 r (botRow k)) rfl rfl (ix2 r k)
    (fun b hb => by match b with | ⟨0, _⟩ => rfl | ⟨1, _⟩ => exact absurd rfl hb)
    (Nat.add_comm _ _)

/-- The first gate's product at `(r, c)`: the two sums of 128 products. -/
theorem dot1_apply (x0 x1 : (⟨S100000x128, .f32⟩ : BufTy).Contents (Elt Ideal)) (W : (⟨S256x128, .f32⟩ : BufTy).Contents (Elt Ideal))
    (r : Fin 100000) (c : Fin 128) :
    val_main_v1 (F := Ideal) x0 x1 W (ix2 r c)
      = ∑ k : Fin 128, x0 (ix2 r k) * W (ix2 (topRow k) c) + ∑ k : Fin 128, x1 (ix2 r k) * W (ix2 (botRow k) c) := by
  have hl : ∀ k : Fin 256, lidx_main_v1 (ix2 r c) k = ix2 r k := fun k => funext fun a => by
    match a with | ⟨0, _⟩ => rfl | ⟨1, _⟩ => rfl
  have hr : ∀ k : Fin 256, ridx_main_v1 (ix2 r c) k = ix2 k c := fun k => funext fun a => by
    match a with | ⟨0, _⟩ => rfl | ⟨1, _⟩ => rfl
  rw [val_main_v1_apply, sum_halves]
  simp only [hl, hr, concat_top, concat_bot]

/-- The second gate's product at `(r, c)`: the same two sums against the second weight matrix. -/
theorem dot2_apply (x0 x1 : (⟨S100000x128, .f32⟩ : BufTy).Contents (Elt Ideal)) (W : (⟨S256x128, .f32⟩ : BufTy).Contents (Elt Ideal))
    (r : Fin 100000) (c : Fin 128) :
    val_main_v11 (F := Ideal) x0 x1 W (ix2 r c)
      = ∑ k : Fin 128, x0 (ix2 r k) * W (ix2 (topRow k) c) + ∑ k : Fin 128, x1 (ix2 r k) * W (ix2 (botRow k) c) := by
  have hl : ∀ k : Fin 256, lidx_main_v11 (ix2 r c) k = ix2 r k := fun k => funext fun a => by
    match a with | ⟨0, _⟩ => rfl | ⟨1, _⟩ => rfl
  have hr : ∀ k : Fin 256, ridx_main_v11 (ix2 r c) k = ix2 k c := fun k => funext fun a => by
    match a with | ⟨0, _⟩ => rfl | ⟨1, _⟩ => rfl
  rw [val_main_v11_apply, sum_halves]
  simp only [hl, hr, concat_top, concat_bot]

/-- The first bias, broadcast over the rows, read at `(r, c)`. -/
theorem bias1_apply (b : (⟨S128, .f32⟩ : BufTy).Contents (Elt Ideal)) (r : Fin 100000) (c : Fin 128) :
    val_main_v3 (F := Ideal) b (ix2 r c) = b (ix1 c) := by
  rw [val_main_v3_apply, val_main_v2_apply]
  exact congrArg b (funext fun a => by match a with | ⟨0, _⟩ => rfl)

/-- The second bias, broadcast over the rows, read at `(r, c)`. -/
theorem bias2_apply (b : (⟨S128, .f32⟩ : BufTy).Contents (Elt Ideal)) (r : Fin 100000) (c : Fin 128) :
    val_main_v13 (F := Ideal) b (ix2 r c) = b (ix1 c) := by
  rw [val_main_v13_apply, val_main_v12_apply]
  exact congrArg b (funext fun a => by match a with | ⟨0, _⟩ => rfl)

/-- The first gate of the reference is the gate of the first logit. -/
theorem gate1_apply (x0 x1 : (⟨S100000x128, .f32⟩ : BufTy).Contents (Elt Ideal)) (W : (⟨S256x128, .f32⟩ : BufTy).Contents (Elt Ideal))
    (b : (⟨S128, .f32⟩ : BufTy).Contents (Elt Ideal)) (r : Fin 100000) (c : Fin 128) :
    val_main_v10 (F := Ideal) x0 x1 W b (ix2 r c) = gate (logit x0 x1 W b r c) := by
  rw [val_main_v10_apply, val_main_v9_apply, val_main_cst_0_apply, val_main_v8_apply, val_main_v7_apply, val_main_cst_apply,
    val_main_v6_apply, val_main_v5_apply, val_main_v4_apply, dot1_apply, bias1_apply]
  exact GateLaw.gate _

/-- The second gate of the reference is the gate of the second logit. -/
theorem gate2_apply (x0 x1 : (⟨S100000x128, .f32⟩ : BufTy).Contents (Elt Ideal)) (W : (⟨S256x128, .f32⟩ : BufTy).Contents (Elt Ideal))
    (b : (⟨S128, .f32⟩ : BufTy).Contents (Elt Ideal)) (r : Fin 100000) (c : Fin 128) :
    val_main_v20 (F := Ideal) x0 x1 W b (ix2 r c) = gate (logit x0 x1 W b r c) := by
  rw [val_main_v20_apply, val_main_v19_apply, val_main_cst_2_apply, val_main_v18_apply, val_main_v17_apply, val_main_cst_1_apply,
    val_main_v16_apply, val_main_v15_apply, val_main_v14_apply, dot2_apply, bias2_apply]
  exact GateLaw.gate _

/-- The reference's result is the specification, index by index. -/
theorem ref_eq_fused (x0 x1 : (⟨S100000x128, .f32⟩ : BufTy).Contents (Elt Ideal)) (x2 : (⟨S256x128, .f32⟩ : BufTy).Contents (Elt Ideal))
    (x3 : (⟨S128, .f32⟩ : BufTy).Contents (Elt Ideal)) (x4 : (⟨S256x128, .f32⟩ : BufTy).Contents (Elt Ideal))
    (x5 : (⟨S128, .f32⟩ : BufTy).Contents (Elt Ideal)) :
    val_main_v23 (F := Ideal) x0 x1 x2 x3 x4 x5 = fused x0 x1 x2 x3 x4 x5 := by
  funext i
  obtain ⟨r, c, rfl⟩ : ∃ (r : Fin 100000) (c : Fin 128), i = ix2 r c := ⟨i 0, i 1, eq_ix2 i⟩
  rw [val_main_v23_apply, val_main_v21_apply, val_main_v22_apply, gate1_apply, gate2_apply, fused_apply]
  rfl

end Cert.RefValue

end
-- ==== Proof.KernelBlock.lean ====
/-
  The kernel's body at one entry of a block.

  At a grid point the body holds a block of 10000 rows of each feature array (`xa`, `xb`), the top and bottom halves of
  each weight matrix (`wa`, `wb`: 128 rows each) and each bias as one row (`bv`). At row `p` and column `q` of the block:
  * a block product into a zero accumulator is `∑ k, x (p, k) * w (k, q)`, the sum over the 128 contracted columns;
  * the bias row, broadcast down the 10000 rows, is read at `(0, q)`;
  * so a logit of the block is `∑ k, xa (p, k) * wa (k, q) + ∑ k, xb (p, k) * wb (k, q) + bv (0, q)`;
  * and the body stores `gate (logit₁) * xa (p, q) + gate (logit₂) * xb (p, q)`, one store covering the whole block.
-/
import proofs.«141303_g6167573037229_cont_9to1_m_401_19_alg».proof.Proof.Gen.KernelIdeal.Frame
import proofs.«141303_g6167573037229_cont_9to1_m_401_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelBlock

open Cert.KernelIdeal Cert.KernelIdeal.Gen Idealize.ShloMosaic Idealize.ShloMosaic.ValueIdx Cert.Spec

/-- The dimensions of the body's four block products: rows × 128 against 128 × 128. -/
abbrev dims := dot_S10000x128_S128x128_S10000x128_1_0_0_1_n_n

/-- The left operand's row coordinate at an output index is the output's row. -/
theorem lhs_row (i : S10000x128.Idx) (k : dims.contr.Idx) : (dims.lhsIdx i k 0).val = (i 0).val := by
  unfold DotDims.lhsIdx
  rw [dif_neg (show ¬(0 : Fin S10000x128.rank) ∈ dims.lhsBatch by decide),
    dif_pos (show (0 : Fin S10000x128.rank) ∈ dims.lhsNonContracting by decide)]
  rfl

/-- The right operand's column coordinate at an output index is the output's column. -/
theorem rhs_col (i : S10000x128.Idx) (k : dims.contr.Idx) : (dims.rhsIdx i k 1).val = (i 1).val := by
  unfold DotDims.rhsIdx
  rw [dif_neg (show ¬(1 : Fin S128x128.rank) ∈ dims.rhsBatch by decide),
    dif_pos (show (1 : Fin S128x128.rank) ∈ dims.rhsNonContracting by decide)]
  rfl

/-- A block product into a zero accumulator, at `(p, q)`: the sum over the 128 contracted columns. -/
theorem matmul_block (x : FVec Ideal S10000x128 .f32) (w : FVec Ideal S128x128 .f32) (p : Fin 10000) (q : Fin 128) :
    matmul dims none x w (constant (F := Ideal) S10000x128 .f32 0x00000000#32) (ix2 p q)
      = ∑ k : Fin 128, x (ix2 p k) * w (ix2 k q) := by
  refine (Ideal.matmul_constant_zero_apply dims none x w (ix2 p q)).trans ?_
  rw [← Equiv.sum_comp (contrEquiv1 dims 128 rfl rfl).symm]
  refine Finset.sum_congr rfl fun k _ => ?_
  have hk := contrEquiv1_symm_val dims 128 rfl rfl k
  have el : dims.lhsIdx (ix2 p q) ((contrEquiv1 dims 128 rfl rfl).symm k) = ix2 p k := funext fun a => Fin.ext (by
    match a with
    | ⟨0, _⟩ => exact lhs_row _ _
    | ⟨1, _⟩ => exact (dims.lhsIdx_val_of_single rfl _ _).trans hk)
  have er : dims.rhsIdx (ix2 p q) ((contrEquiv1 dims 128 rfl rfl).symm k) = ix2 k q := funext fun a => Fin.ext (by
    match a with
    | ⟨0, _⟩ => exact (dims.rhsIdx_val_of_single rfl _ _).trans hk
    | ⟨1, _⟩ => exact rhs_col _ _)
  rw [el, er]

/-- The bias row broadcast down the rows, at `(p, q)`: the row's entry at `q`. -/
theorem bias_block (bv : FVec Ideal S1x128 .f32) (p : Fin 10000) (q : Fin 128) :
    broadcastTo S10000x128 (shapeCast S1x128 bv shapeCasts_S1x128_S1x128) broadcasts_S1x128_S10000x128 (ix2 p q)
      = bv (ix2 (0 : Fin 1) q) := by
  refine (broadcastTo_1b_ab_apply _ broadcasts_S1x128_S10000x128 p q).trans ?_
  rw [shapeCast_self]

/-- A logit of the block at `(p, q)`. -/
def blockLogit (xa xb : FVec Ideal S10000x128 .f32) (wa wb : FVec Ideal S128x128 .f32) (bv : FVec Ideal S1x128 .f32)
    (p : Fin 10000) (q : Fin 128) : EReal :=
  (∑ k : Fin 128, xa (ix2 p k) * wa (ix2 k q) + ∑ k : Fin 128, xb (ix2 p k) * wb (ix2 k q)) + bv (ix2 (0 : Fin 1) q)

/-- The body's logit term at `(p, q)` is the block's logit. -/
theorem logit_block (xa xb : FVec Ideal S10000x128 .f32) (wa wb : FVec Ideal S128x128 .f32) (bv : FVec Ideal S1x128 .f32)
    (p : Fin 10000) (q : Fin 128) :
    addf (addf (matmul dims none xa (shapeCast S128x128 wa shapeCasts_S128x128_S128x128) (constant (F := Ideal) S10000x128 .f32 0x00000000#32))
        (matmul dims none xb (shapeCast S128x128 wb shapeCasts_S128x128_S128x128) (constant (F := Ideal) S10000x128 .f32 0x00000000#32)))
      (broadcastTo S10000x128 (shapeCast S1x128 bv shapeCasts_S1x128_S1x128) broadcasts_S1x128_S10000x128) (ix2 p q)
      = blockLogit xa xb wa wb bv p q := by
  rw [addf_apply, addf_apply, matmul_block, matmul_block, bias_block, shapeCast_self, shapeCast_self]
  rfl

/-- The first gate's payload at `(p, q)`: the gate of the block's first logit. -/
theorem pay2_apply (xa xb : FVec Ideal S10000x128 .f32) (wa wb : FVec Ideal S128x128 .f32) (bv : FVec Ideal S1x128 .f32)
    (p : Fin 10000) (q : Fin 128) :
    k0_pay2 (F := Ideal) xa xb wa wb bv (ix2 p q) = gate (blockLogit xa xb wa wb bv p q) := by
  unfold k0_pay2
  refine (addf_apply _ _ _).trans ?_
  refine (congrArg (· + _) (mulf_apply _ _ _)).trans ?_
  refine (congrArg (fun z => _ * Ideal.tanh z + _) ((mulf_apply _ _ _).trans (congrArg (_ * ·) (logit_block xa xb wa wb bv p q)))).trans ?_
  rfl

/-- The second gate's payload stops at its `tanh`: at `(p, q)`, `tanh` of half the block's second logit. -/
theorem pay3_apply (xa xb : FVec Ideal S10000x128 .f32) (wa wb : FVec Ideal S128x128 .f32) (bv : FVec Ideal S1x128 .f32)
    (p : Fin 10000) (q : Fin 128) :
    k0_pay3 (F := Ideal) xa xb wa wb bv (ix2 p q) = Ideal.tanh (half * blockLogit xa xb wa wb bv p q) := by
  unfold k0_pay3
  refine (congrArg Ideal.tanh ((mulf_apply _ _ _).trans (congrArg (_ * ·) (logit_block xa xb wa wb bv p q)))).trans ?_
  rfl

/-- The stored value at `(p, q)`: the first gate times `xa` plus the second gate, finished from its `tanh`, times `xb`. -/
theorem pay1_apply (xa xb : FVec Ideal S10000x128 .f32) (g1 th2 : FVec Ideal S10000x128 .f32) (p : Fin 10000) (q : Fin 128) :
    k0_pay1 (F := Ideal) xa xb g1 th2 (Scalar.ofBits .f32 0x3F000000#32) (ix2 p q)
      = g1 (ix2 p q) * xa (ix2 p q) + (half * th2 (ix2 p q) + half) * xb (ix2 p q) := rfl

theorem hz : (![0, 0] : Fin 2 → Nat) = fun _ => 0 := funext fun a => by fin_cases a <;> rfl

/-- What the output's buffer holds after the body, at `(p, q)`, from the eight input blocks. -/
theorem out_block (xa xb : Vec Ideal S10000x128 .f32) (w1a w1b : Vec Ideal S128x128 .f32) (b1 : Vec Ideal S1x128 .f32)
    (w2a w2b : Vec Ideal S128x128 .f32) (b2 : Vec Ideal S1x128 .f32) (p : Fin 10000) (q : Fin 128) :
    out0_8 (F := Ideal) xa xb w1a w1b b1 w2a w2b b2 (ix2 p q)
      = gate (blockLogit xa xb w1a w1b b1 p q) * xa (ix2 p q) + gate (blockLogit xa xb w2a w2b b2 p q) * xb (ix2 p q) := by
  unfold out0_8
  rw [View.canon_unit_zero hz]
  simp only [View.ld_unit_zero (S := S10000x128) hz, View.ld_unit_zero (S := S128x128) hz, View.ld_unit_zero (S := S1x128) hz]
  refine (pay1_apply xa xb _ _ p q).trans ?_
  rw [pay2_apply, pay3_apply]
  rfl

end Cert.KernelBlock

end
-- ==== Proof.KernelValue.lean ====
/-
  From blocks to the whole array.

  The kernel runs over ten grid points. At point `t` it is handed rows `t * 10000 … t * 10000 + 9999` of the two feature
  arrays, and, at every point, the same six small arrays the host wrote before the region: the top and bottom 128 rows of
  each weight matrix and each bias as one row. So an entry of a block is an entry of an argument array — a feature at the
  block's row of the array, a weight at row `k` or `128 + k`, a bias at its column — and the block's logit at `(p, q)` is the
  specification's logit at `(t * 10000 + p, q)`. Hence what point `t` writes back is block `t` of the specification. Row
  `r` of the array lies in the block of point `r / 10000`, so the ten blocks fill the array, and the array after the run is
  the specification of the argument arrays.
-/
import proofs.«141303_g6167573037229_cont_9to1_m_401_19_alg».proof.Proof.Gen.KernelIdeal.Value
import proofs.«141303_g6167573037229_cont_9to1_m_401_19_alg».proof.Proof.KernelBlock
import Idealize.ShloMosaic.Lib.StableHlo.Run
import Idealize.ShloMosaic.Lib.ValueLayout

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx Cert.Spec Cert.KernelBlock
open Idealize.ShloMosaic.Pipeline (Dat)

variable (m : (ℓ : Loc nD τ sig) → Buf (Elt Ideal) ℓ) (ρ : Dev nD → PrngReg)

/-! ## Which row of the array a row of a block is -/

/-- Row `p` of the block at grid point `t` is row `t * 10000 + p` of the array. -/
def row (t : Fin cfg0.N) (p : Fin 10000) : Fin 100000 :=
  ⟨t.val * 10000 + p.val, by
    have ht : t.val < grid0.N := t.isLt
    rw [N_0] at ht
    have := p.isLt
    omega⟩

theorem row_val (t : Fin cfg0.N) (p : Fin 10000) : (row t p).val = t.val * 10000 + p.val := rfl

/-- The index maps, decided over the ten grid points: the two feature windows and the output window move with the
    point along the rows; the six windows of the weight halves and bias rows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## What the host operations before the region wrote: the halves of the weights, the biases as rows -/

theorem V_w1top (c : Dev nD) : (V m c main_call0_v0 : S128x128.Idx → EReal)
    = extractStridedSlice S128x128 ![0, 0] (m ((c : Thread nD τ).loc main_arg2)) slices_S256x128_S128x128_0_0 := by
  dsimp only [Gen.V, Gen.hostOps0]; after_results; rfl

theorem V_w1bot (c : Dev nD) : (V m c main_call0_v1 : S128x128.Idx → EReal)
    = extractStridedSlice S128x128 ![128, 0] (m ((c : Thread nD τ).loc main_arg2)) slices_S256x128_S128x128_128_0 := by
  dsimp only [Gen.V, Gen.hostOps0]; after_results; rfl

theorem V_b1 (c : Dev nD) : (V m c main_call0_v2 : S1x128.Idx → EReal)
    = shapeCast S1x128 (m ((c : Thread nD τ).loc main_arg3)) shapeCasts_S128_S1x128 := by
  dsimp only [Gen.V, Gen.hostOps0]; after_results; rfl

theorem V_w2top (c : Dev nD) : (V m c main_call0_v3 : S128x128.Idx → EReal)
    = extractStridedSlice S128x128 ![0, 0] (m ((c : Thread nD τ).loc main_arg4)) slices_S256x128_S128x128_0_0 := by
  dsimp only [Gen.V, Gen.hostOps0]; after_results; rfl

theorem V_w2bot (c : Dev nD) : (V m c main_call0_v4 : S128x128.Idx → EReal)
    = extractStridedSlice S128x128 ![128, 0] (m ((c : Thread nD τ).loc main_arg4)) slices_S256x128_S128x128_128_0 := by
  dsimp only [Gen.V, Gen.hostOps0]; after_results; rfl

theorem V_b2 (c : Dev nD) : (V m c main_call0_v5 : S1x128.Idx → EReal)
    = shapeCast S1x128 (m ((c : Thread nD τ).loc main_arg5)) shapeCasts_S128_S1x128 := by
  dsimp only [Gen.V, Gen.hostOps0]; after_results; rfl

/-! ## Each window's block at a point, read as entries of the argument arrays -/

/-- Entry `(p, k)` of the first feature array's block at `t` is entry `(t * 10000 + p, k)` of the array. -/
theorem read_xa (c : Dev nD) (t : Fin cfg0.N) (p : Fin 10000) (k : Fin 128) :
    iblk m c 0 t (ix2 p k) = m ((c : Thread nD τ).loc main_arg0) (ix2 (row t p) k) := by
  obtain ⟨e0, e1, -⟩ := idx_facts t
  have he : ((cfg0.win 0).blk t).view.emb (ix2 p k) = ix2 (row t p) k := funext fun a => Fin.ext (by
    match a with
    | ⟨0, _⟩ => show win0_0.index t (0 : Fin 2) * 10000 + 1 * p.val = t.val * 10000 + p.val; omega
    | ⟨1, _⟩ => show win0_0.index t (1 : Fin 2) * 128 + 1 * k.val = k.val; omega)
  show V m c main_arg0 (((cfg0.win 0).blk t).view.emb (ix2 p k)) = _
  rw [he, V_main_arg0]

/-- Entry `(p, k)` of the second feature array's block at `t` is entry `(t * 10000 + p, k)` of the array. -/
theorem read_xb (c : Dev nD) (t : Fin cfg0.N) (p : Fin 10000) (k : Fin 128) :
    iblk m c 1 t (ix2 p k) = m ((c : Thread nD τ).loc main_arg1) (ix2 (row t p) k) := by
  obtain ⟨-, -, e0, e1, -⟩ := idx_facts t
  have he : ((cfg0.win 1).blk t).view.emb (ix2 p k) = ix2 (row t p) k := funext fun a => Fin.ext (by
    match a with
    | ⟨0, _⟩ => show win0_1.index t (0 : Fin 2) * 10000 + 1 * p.val = t.val * 10000 + p.val; omega
    | ⟨1, _⟩ => show win0_1.index t (1 : Fin 2) * 128 + 1 * k.val = k.val; omega)
  show V m c main_arg1 (((cfg0.win 1).blk t).view.emb (ix2 p k)) = _
  rw [he, V_main_arg1]

/-- The top half of the first weight matrix: its entry `(k, q)` is the matrix's entry `(k, q)`. -/
theorem read_w1a (c : Dev nD) (t : Fin cfg0.N) (k q : Fin 128) :
    iblk m c 2 t (ix2 k q) = m ((c : Thread nD τ).loc main_arg2) (ix2 (topRow k) q) := by
  obtain ⟨-, -, -, -, e0, e1, -⟩ := idx_facts t
  have he : ((cfg0.win 2).blk t).view.emb (ix2 k q) = ix2 k q := funext fun a => Fin.ext (by
    match a with
    | ⟨0, _⟩ => show win0_2.index t (0 : Fin 2) * 128 + 1 * k.val = k.val; omega
    | ⟨1, _⟩ => show win0_2.index t (1 : Fin 2) * 128 + 1 * q.val = q.val; omega)
  show V m c main_call0_v0 (((cfg0.win 2).blk t).view.emb (ix2 k q)) = _
  rw [he, V_w1top]
  exact slice2_axis0_apply 0 _ slices_S256x128_S128x128_0_0 k q (topRow k) (Nat.zero_add _).symm

/-- The bottom half of the first weight matrix: its entry `(k, q)` is the matrix's entry `(128 + k, q)`. -/
theorem read_w1b (c : Dev nD) (t : Fin cfg0.N) (k q : Fin 128) :
    iblk m c 3 t (ix2 k q) = m ((c : Thread nD τ).loc main_arg2) (ix2 (botRow k) q) := by
  obtain ⟨-, -, -, -, -, -, e0, e1, -⟩ := idx_facts t
  have he : ((cfg0.win 3).blk t).view.emb (ix2 k q) = ix2 k q := funext fun a => Fin.ext (by
    match a with
    | ⟨0, _⟩ => show win0_3.index t (0 : Fin 2) * 128 + 1 * k.val = k.val; omega
    | ⟨1, _⟩ => show win0_3.index t (1 : Fin 2) * 128 + 1 * q.val = q.val; omega)
  show V m c main_call0_v1 (((cfg0.win 3).blk t).view.emb (ix2 k q)) = _
  rw [he, V_w1bot]
  exact slice2_axis0_apply 128 _ slices_S256x128_S128x128_128_0 k q (botRow k) rfl

/-- The first bias as one row: its entry `(0, q)` is the bias at `q`. -/
theorem read_b1 (c : Dev nD) (t : Fin cfg0.N) (q : Fin 128) :
    iblk m c 4 t (ix2 (0 : Fin 1) q) = m ((c : Thread nD τ).loc main_arg3) (ix1 q) := by
  obtain ⟨-, -, -, -, -, -, -, -, e0, e1, -⟩ := idx_facts t
  have he : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 128 + 1 * q.val = q.val; omega)
  show V m c main_call0_v2 (((cfg0.win 4).blk t).view.emb (ix2 (0 : Fin 1) q)) = _
  rw [he, V_b1]
  exact shapeCast_a_1a_apply _ shapeCasts_S128_S1x128 0 q

/-- The top half of the second weight matrix. -/
theorem read_w2a (c : Dev nD) (t : Fin cfg0.N) (k q : Fin 128) :
    iblk m c 5 t (ix2 k q) = m ((c : Thread nD τ).loc main_arg4) (ix2 (topRow k) q) := by
  obtain ⟨-, -, -, -, -, -, -, -, -, -, e0, e1, -⟩ := idx_facts t
  have he : ((cfg0.win 5).blk t).view.emb (ix2 k q) = ix2 k q := funext fun a => Fin.ext (by
    match a with
    | ⟨0, _⟩ => show win0_5.index t (0 : Fin 2) * 128 + 1 * k.val = k.val; omega
    | ⟨1, _⟩ => show win0_5.index t (1 : Fin 2) * 128 + 1 * q.val = q.val; omega)
  show V m c main_call0_v3 (((cfg0.win 5).blk t).view.emb (ix2 k q)) = _
  rw [he, V_w2top]
  exact slice2_axis0_apply 0 _ slices_S256x128_S128x128_0_0 k q (topRow k) (Nat.zero_add _).symm

/-- The bottom half of the second weight matrix. -/
theorem read_w2b (c : Dev nD) (t : Fin cfg0.N) (k q : Fin 128) :
    iblk m c 6 t (ix2 k q) = m ((c : Thread nD τ).loc main_arg4) (ix2 (botRow k) q) := by
  obtain ⟨-, -, -, -, -, -, -, -, -, -, -, -, e0, e1, -⟩ := idx_facts t
  have he : ((cfg0.win 6).blk t).view.emb (ix2 k q) = ix2 k q := funext fun a => Fin.ext (by
    match a with
    | ⟨0, _⟩ => show win0_6.index t (0 : Fin 2) * 128 + 1 * k.val = k.val; omega
    | ⟨1, _⟩ => show win0_6.index t (1 : Fin 2) * 128 + 1 * q.val = q.val; omega)
  show V m c main_call0_v4 (((cfg0.win 6).blk t).view.emb (ix2 k q)) = _
  rw [he, V_w2bot]
  exact slice2_axis0_apply 128 _ slices_S256x128_S128x128_128_0 k q (botRow k) rfl

/-- The second bias as one row. -/
theorem read_b2 (c : Dev nD) (t : Fin cfg0.N) (q : Fin 128) :
    iblk m c 7 t (ix2 (0 : Fin 1) q) = m ((c : Thread nD τ).loc main_arg5) (ix1 q) := by
  obtain ⟨-, -, -, -, -, -, -, -, -, -, -, -, -, -, e0, e1, -⟩ := idx_facts t
  have he : ((cfg0.win 7).blk t).view.emb (ix2 (0 : Fin 1) q) = ix2 (0 : Fin 1) q := funext fun a => Fin.ext (by
    match a with
    | ⟨0, _⟩ => show win0_7.index t (0 : Fin 2) * 1 + 1 * 0 = 0; omega
    | ⟨1, _⟩ => show win0_7.index t (1 : Fin 2) * 128 + 1 * q.val = q.val; omega)
  show V m c main_call0_v5 (((cfg0.win 7).blk t).view.emb (ix2 (0 : Fin 1) q)) = _
  rw [he, V_b2]
  exact shapeCast_a_1a_apply _ shapeCasts_S128_S1x128 0 q

/-! ## A block's logit is the array's logit at the block's row -/

/-- When the blocks are read off the arrays as above, the block's logit at `(p, q)` is the logit at `(R, q)`. -/
theorem blockLogit_eq (xa xb : FVec Ideal S10000x128 .f32) (wa wb : FVec Ideal S128x128 .f32) (bv : FVec Ideal S1x128 .f32)
    (Xa Xb : (⟨2, ![100000, 128]⟩ : Shape).Idx → EReal) (W : (⟨2, ![256, 128]⟩ : Shape).Idx → EReal)
    (b : (⟨1, ![128]⟩ : Shape).Idx → EReal) (p : Fin 10000) (q : Fin 128) (R : Fin 100000)
    (ha : ∀ k, xa (ix2 p k) = Xa (ix2 R k)) (hb : ∀ k, xb (ix2 p k) = Xb (ix2 R k))
    (hwa : ∀ k, wa (ix2 k q) = W (ix2 (topRow k) q)) (hwb : ∀ k, wb (ix2 k q) = W (ix2 (botRow k) q))
    (hbv : bv (ix2 (0 : Fin 1) q) = b (ix1 q)) :
    blockLogit xa xb wa wb bv p q = logit Xa Xb W b R q := by
  unfold blockLogit logit
  simp only [ha, hb, hwa, hwb, hbv]

/-! ## What a point writes back, the cover, the whole array, the run -/

/-- WHAT POINT `t` WRITES BACK is block `t` of the specification of the argument arrays. -/
theorem flushed_eq (c : Dev nD) (t : Fin cfg0.N) :
    (dats m 0 c).flushed 8 t = ((cfg0.win 8).blk t).view.read (Elt Ideal)
      (fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed8]
  funext y
  obtain ⟨p, q, rfl⟩ : ∃ (p : Fin 10000) (q : Fin 128), y = ix2 p q := ⟨y 0, y 1, eq_ix2 y⟩
  have he : ((cfg0.win 8).blk t).view.emb (ix2 p q) = ix2 (row t p) q := by
    obtain ⟨-, -, -, -, -, -, -, -, -, -, -, -, -, -, -, -, e0, e1⟩ := idx_facts t
    exact funext fun a => Fin.ext (by
      match a with
      | ⟨0, _⟩ => show win0_8.index t (0 : Fin 2) * 10000 + 1 * p.val = t.val * 10000 + p.val; omega
      | ⟨1, _⟩ => show win0_8.index t (1 : Fin 2) * 128 + 1 * q.val = q.val; omega)
  show out0_8 (iblk m c 0 t) (iblk m c 1 t) (iblk m c 2 t) (iblk m c 3 t) (iblk m c 4 t) (iblk m c 5 t) (iblk m c 6 t) (iblk m c 7 t) (ix2 p q)
    = fused _ _ _ _ _ _ (((cfg0.win 8).blk t).view.emb (ix2 p q))
  rw [he, fused_apply]
  refine (out_block (iblk m c 0 t) (iblk m c 1 t) (iblk m c 2 t) (iblk m c 3 t) (iblk m c 4 t) (iblk m c 5 t) (iblk m c 6 t) (iblk m c 7 t) p q).trans ?_
  rw [blockLogit_eq (iblk m c 0 t) (iblk m c 1 t) (iblk m c 2 t) (iblk m c 3 t) (iblk m c 4 t) _ _ _ _ p q (row t p)
      (read_xa m c t p) (read_xb m c t p) (fun k => read_w1a m c t k q) (fun k => read_w1b m c t k q) (read_b1 m c t q),
    blockLogit_eq (iblk m c 0 t) (iblk m c 1 t) (iblk m c 5 t) (iblk m c 6 t) (iblk m c 7 t) _ _ _ _ p q (row t p)
      (read_xa m c t p) (read_xb m c t p) (fun k => read_w2a m c t k q) (fun k => read_w2b m c t k q) (read_b2 m c t q),
    read_xa, read_xb]

/-- An index of the array is in point `t`'s block iff each coordinate is in the block's range on its axis. -/
theorem mem_blk (t : Fin cfg0.N) (i : S100000x128.Idx) :
    i ∈ ((cfg0.win 8).blk t).view.set ↔ ∀ a : Fin 2, win0_8.index t a * S10000x128.size a ≤ (i a).val ∧ (i a).val < win0_8.index t a * S10000x128.size a + S10000x128.size a := by
  show i ∈ ((View.whole main_v0).slice (win0_8.rect t)).set ↔ _
  rw [View.set_slice_whole, Rect.mem_set_unit]
  exact Iff.rfl

/-- THE COVER: row `r` of the array is in the block of point `r / 10000`; the ten blocks fill the array. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, htv⟩ : ∃ t : Fin cfg0.N, t.val = (i 0).val / 10000 :=
    ⟨⟨(i 0).val / 10000, by show _ < grid0.N; rw [N_0]; omega⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 10000 ≤ (i 0).val ∧ (i 0).val < win0_8.index t (0 : Fin 2) * 10000 + 10000; omega
  | ⟨1, _⟩ => show win0_8.index t (1 : Fin 2) * 128 ≤ (i 1).val ∧ (i 1).val < win0_8.index t (1 : Fin 2) * 128 + 128; omega

/-- THE ARRAY after the run is the specification of the argument arrays. -/
theorem final (c : Dev nD) : (dats m 0 c).arrAt 8 cfg0.N
    = fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 8 _ (fun t _ => flushed_eq m c t) cover

/-- The kernel's run: the result array ends at the specification of the argument arrays, the arguments unchanged. -/
theorem run : θ_run defs (onTc (τ := τ) (main (F := Ideal))) ⟨m, fun _ => 0, ρ⟩ fun r => ∀ c : Dev nD,
      r.2.mem ((c : Thread nD τ).loc main_v0)
        = fused (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelValue

end
-- ==== Proof.lean ====
/-
  Two programs that fuse two feature arrays through two gates compute the same function of their six arguments.

  The arguments are two feature arrays of 100000 rows and 128 columns, and for each of two gates a weight matrix of 256 rows
  and 128 columns and a bias of 128 entries. Both programs return, at row `r` and column `c`,
  `gate₁ * xa (r, c) + gate₂ * xb (r, c)`, where a gate is a function of its logit
  `L = ∑ over 256 columns of (row r of xa and xb side by side) * (column c of the weights) + bias c`.
  They differ in two ways, and neither changes the value on the extended reals:
  * one forms the logit as ONE sum over the 256 columns of the side-by-side row, the other as the sum over the first 128
    columns (the first feature array against the top half of the weights) plus the sum over the last 128 (the second
    against the bottom half), block of 10000 rows by block of 10000 rows: the same sum, grouped differently;
  * one takes the gate as the logistic function `1 / (1 + e^(-L))`, the other as `1/2 * tanh (L / 2) + 1/2`: one function
    of `L`, at the two infinite logits too (Proof/GateLaw.lean).
  So both end at one function of the argument arrays (Proof/Spec.lean): the reference by reading its operations one at a
  time at an index (Proof/RefValue.lean), the kernel by reading what its body stores at an entry of a block
  (Proof/KernelBlock.lean) and then that its ten blocks fill the array (Proof/KernelValue.lean). The equality needs nothing
  of the inputs, so the precondition is never opened. The idealized kernel is the kernel's own text read on the extended
  reals (no rewrite was applied), so that conjunct is `True`. Each program's run also leaves its arguments unchanged.
-/
import proofs.«141303_g6167573037229_cont_9to1_m_401_19_alg».proof.Defs
import proofs.«141303_g6167573037229_cont_9to1_m_401_19_alg».proof.Proof.Gen.Kernel.Frame
import proofs.«141303_g6167573037229_cont_9to1_m_401_19_alg».proof.Proof.Gen.KernelIdeal.Frame
import proofs.«141303_g6167573037229_cont_9to1_m_401_19_alg».proof.Proof.Gen.KernelIdeal.Value
import proofs.«141303_g6167573037229_cont_9to1_m_401_19_alg».proof.Proof.Gen.ReferenceIdeal.Run
import proofs.«141303_g6167573037229_cont_9to1_m_401_19_alg».proof.Proof.Gen.ReferenceIdeal.Read
import proofs.«141303_g6167573037229_cont_9to1_m_401_19_alg».proof.Proof.Gen.Pre_finite_inputs
import proofs.«141303_g6167573037229_cont_9to1_m_401_19_alg».proof.Proof.RefValue
import proofs.«141303_g6167573037229_cont_9to1_m_401_19_alg».proof.Proof.KernelValue

noncomputable section

namespace Cert.Proof

open Idealize.ShloMosaic Idealize.ShloMosaic.TcCoe Idealize.SL.Sem

/-- The kernel as printed runs to the end, faults nowhere, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on the six arguments, both programs end with the fused features of those arguments. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefValue.ref_eq_fused, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
